-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32 : Shape := ⟨2, ![1024, 32]⟩
abbrev S64x32 : Shape := ⟨2, ![64, 32]⟩
abbrev S64 : Shape := ⟨1, ![64]⟩
abbrev S32x64 : Shape := ⟨2, ![32, 64]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  main_v18

def fn {F : FTy → Type} [FloatOps F] (main_arg0 : FVec F S1024x32 .f32) (main_arg1 : FVec F S64x32 .f32) (main_arg2 : FVec F S64 .f32) (main_arg3 : FVec F S32x64 .f32) : IVec S_ 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_c : IVec S_ 1 := constantI S_ 1 1#1
  let main_v3 : IVec S_ 1 := (fun x v => Host.reduce IntOp.andi x v reducesTo_S1024x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_v13 main_v16
-- ==== Kernel.lean ====
abbrev S1024x32 : Shape := ⟨2, ![1024, 32]⟩
abbrev S64x32 : Shape := ⟨2, ![64, 32]⟩
abbrev S64 : Shape := ⟨1, ![64]⟩
abbrev S32x64 : Shape := ⟨2, ![32, 64]⟩
abbrev S1024x64 : Shape := ⟨2, ![1024, 64]⟩
abbrev S1x64 : Shape := ⟨2, ![1, 64]⟩
abbrev S_ : Shape := ⟨0, ![]⟩
abbrev S1x32768 : Shape := ⟨2, ![1, 32768]⟩
abbrev S1024x32768 : Shape := ⟨2, ![1024, 32768]⟩
abbrev S128x32 : Shape := ⟨2, ![128, 32]⟩
abbrev S128x32768 : Shape := ⟨2, ![128, 32768]⟩
abbrev S1024x1024x32 : Shape := ⟨3, ![1024, 1024, 32]⟩

abbrev nBuf : Space → Nat
  | .hbm => 17
  | .vmem => 5
  | .smem => 0
  | _ => 0

abbrev bufTy : (tb : Table) → Fin (tcTables nBuf tb) → BufTy
  | .hbm, ⟨0, _⟩ => ⟨S1024x32, .f32⟩
  | .hbm, ⟨1, _⟩ => ⟨S64x32, .f32⟩
  | .hbm, ⟨2, _⟩ => ⟨S64, .f32⟩
  | .hbm, ⟨3, _⟩ => ⟨S32x64, .f32⟩
  | .hbm, ⟨4, _⟩ => ⟨S32x64, .f32⟩
  | .hbm, ⟨5, _⟩ => ⟨S1024x64, .f32⟩
  | .hbm, ⟨6, _⟩ => ⟨S1x64, .f32⟩
  | .hbm, ⟨7, _⟩ => ⟨S1024x64, .f32⟩
  | .hbm, ⟨8, _⟩ => ⟨S1024x64, .f32⟩
  | .hbm, ⟨9, _⟩ => ⟨S64x32, .f32⟩
  | .hbm, ⟨10, _⟩ => ⟨S1024x32, .f32⟩
  | .hbm, ⟨11, _⟩ => ⟨S_, .f32⟩
  | .hbm, ⟨12, _⟩ => ⟨S1024x32, .f32⟩
  | .hbm, ⟨13, _⟩ => ⟨S1024x32, .f32⟩
  | .hbm, ⟨14, _⟩ => ⟨S1x32768, .f32⟩
  | .hbm, ⟨15, _⟩ => ⟨S1024x32768, .f32⟩
  | .hbm, ⟨16, _⟩ => ⟨S1024x1024x32, .f32⟩
  | .local _ .vmem, ⟨0, _⟩ => ⟨S128x32, .f32⟩
  | .local _ .vmem, ⟨1, _⟩ => ⟨S128x32, .f32⟩
  | .local _ .vmem, ⟨2, _⟩ => ⟨S1x32768, .f32⟩
  | .local _ .vmem, ⟨3, _⟩ => ⟨S128x32768, .f32⟩
  | .local _ .vmem, ⟨4, _⟩ => ⟨S128x32768, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x32_S32x64_1_0 : S64x32.Transposes [1, 0] S32x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  transposes_S32x64_S64x32_1_0 : S32x64.Transposes [1, 0] S64x32
  bcast_S_S1024x32 : S_.BroadcastsInDim S1024x32 (![] : Fin 0 → Fin S1024x32.rank)
  shapeCasts_S1024x32_S1x32768 : S1024x32.ShapeCasts S1x32768
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  concatenates_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32_S128x32768_d1 : Shape.Concatenates (S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: S128x32 :: []) S128x32768 1
  broadcasts_S1x32768_S128x32768 : S1x32768.Broadcasts S128x32768
  inb_S128x32768_S128x32768_0_0 : ∀ a, (![0, 0] : Fin 2 → Nat) a + S128x32768.size a ≤ S128x32768.size a
  h_S128x32768 : 0 < S128x32768.numel
  shapeCasts_S1024x32768_S1024x1024x32 : S1024x32768.ShapeCasts S1024x1024x32
  dot_S1024x32_S32x64_S1024x64_1_0_0_1_n_n_wf : DotDims.WF S1024x32 S32x64 S1024x64 [1] [0] [0] [1] [] []
  dot_S1024x64_S64x32_S1024x32_1_0_0_1_n_n_wf : DotDims.WF S1024x64 S64x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32.size a ≤ S1024x32.size a
  hwx0_0 : ∀ i : grid0.Coords, EltTy.bits .f32 = 32 ∨ (Rect.block (s := S1024x32) S128x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x32768.size a
  hwx0_1 : ∀ i : grid0.Coords, EltTy.bits .f32 = 32 ∨ (Rect.block (s := S1x32768) S1x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32768.size a ≤ S1024x32768.size a
  hwx0_2 : ∀ i : grid0.Coords, EltTy.bits .f32 = 32 ∨ (Rect.block (s := S1024x32768) S128x32768.size (cc0_transform_2 i) (hinb0_2 i)).WholeWords (EltTy.packing .f32)

variable [Facts₀]

def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf

abbrev win0_0 : Pipeline.Window sig grid0 :=
  Pipeline.Window.ofSpec (Memref.whole main_v8) S128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x32768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x32768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x32 : Shape := ⟨2, ![1024, 32]⟩
abbrev S64x32 : Shape := ⟨2, ![64, 32]⟩
abbrev S64 : Shape := ⟨1, ![64]⟩
abbrev S32x64 : Shape := ⟨2, ![32, 64]⟩
abbrev S1024x64 : Shape := ⟨2, ![1024, 64]⟩
abbrev S1x64 : Shape := ⟨2, ![1, 64]⟩
abbrev S_ : Shape := ⟨0, ![]⟩
abbrev S1024x1x32 : Shape := ⟨3, ![1024, 1, 32]⟩
abbrev S1x1024x32 : Shape := ⟨3, ![1, 1024, 32]⟩
abbrev S1024x1024x32 : Shape := ⟨3, ![1024, 1024, 32]⟩

abbrev nBuf : Space → Nat
  | .hbm => 19
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S64x32, .f32⟩
  | .hbm, ⟨2, _⟩ => ⟨S64, .f32⟩
  | .hbm, ⟨3, _⟩ => ⟨S32x64, .f32⟩
  | .hbm, ⟨4, _⟩ => ⟨S32x64, .f32⟩
  | .hbm, ⟨5, _⟩ => ⟨S1024x64, .f32⟩
  | .hbm, ⟨6, _⟩ => ⟨S1x64, .f32⟩
  | .hbm, ⟨7, _⟩ => ⟨S1024x64, .f32⟩
  | .hbm, ⟨8, _⟩ => ⟨S1024x64, .f32⟩
  | .hbm, ⟨9, _⟩ => ⟨S64x32, .f32⟩
  | .hbm, ⟨10, _⟩ => ⟨S1024x32, .f32⟩
  | .hbm, ⟨11, _⟩ => ⟨S_, .f32⟩
  | .hbm, ⟨12, _⟩ => ⟨S1024x32, .f32⟩
  | .hbm, ⟨13, _⟩ => ⟨S1024x32, .f32⟩
  | .hbm, ⟨14, _⟩ => ⟨S1024x1x32, .f32⟩
  | .hbm, ⟨15, _⟩ => ⟨S1x1024x32, .f32⟩
  | .hbm, ⟨16, _⟩ => ⟨S1024x1024x32, .f32⟩
  | .hbm, ⟨17, _⟩ => ⟨S1024x1024x32, .f32⟩
  | .hbm, ⟨18, _⟩ => ⟨S1024x1024x32, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  transposes_S64x32_S32x64_1_0 : S64x32.Transposes [1, 0] S32x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  transposes_S32x64_S64x32_1_0 : S32x64.Transposes [1, 0] S64x32
  bcast_S_S1024x32 : S_.BroadcastsInDim S1024x32 (![] : Fin 0 → Fin S1024x32.rank)
  bcast_S1024x32_S1024x1x32_0_2 : S1024x32.BroadcastsInDim S1024x1x32 (![0, 2] : Fin 2 → Fin S1024x1x32.rank)
  bcast_S1024x32_S1x1024x32_1_2 : S1024x32.BroadcastsInDim S1x1024x32 (![1, 2] : Fin 2 → Fin S1x1024x32.rank)
  bcast_S1024x1x32_S1024x1024x32_0_1_2 : S1024x1x32.BroadcastsInDim S1024x1024x32 (![0, 1, 2] : Fin 3 → Fin S1024x1024x32.rank)
  bcast_S1x1024x32_S1024x1024x32_0_1_2 : S1x1024x32.BroadcastsInDim S1024x1024x32 (![0, 1, 2] : Fin 3 → Fin S1024x1024x32.rank)
  dot_S1024x32_S32x64_S1024x64_1_0_0_1_n_n_wf : DotDims.WF S1024x32 S32x64 S1024x64 [1] [0] [0] [1] [] []
  dot_S1024x64_S64x32_S1024x32_1_0_0_1_n_n_wf : DotDims.WF S1024x64 S64x32 S1024x32 [1] [0] [0] [1] [] []

variable [Facts₀]

def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf

class Facts : Prop extends Facts₀ where

variable [Facts]
-- ==== Proof.OuterSum.lean ====
/-
  The mathematics of the outer sum, with no program in sight.

  A table `p` of 1024 rows of 32 numbers is sent to the array of all pairwise row sums,
  `pair[i, j, d] = p[i, d] + p[j, d]` (`pairSum`).  The array can also be laid out flat, as a 1024 × 32768 matrix whose
  column `c = 32·j + d` of row `i` holds `p[i, c mod 32] + q[0, c]`, where `q` is `p` itself read as ONE row of 32768 numbers
  (`flatSum`): 128 rows of that matrix are the same 128 rows of `p` written 1024 times side by side, plus `q` on every
  row (`tile_apply`).  Reading the flat matrix back as a 1024 × 1024 × 32 array gives `pairSum` (`cube_flatSum`): row-major
  order sends `(i, 32·j + d)` and `(i, j, d)` to the same position, and `(32·j + d) mod 32 = d`, `(32·j + d) / 32 = j`.
  No law of addition is used: both spellings add the same two numbers in the same order.
-/
import Idealize.ShloMosaic.PureOps.Ideal
import Idealize.ShloMosaic.Lib.ValueIdx
import Idealize.ShloMosaic.Lib.Pipeline.Value

noncomputable section

namespace Cert.OuterSum

open Idealize.ShloMosaic Idealize.ShloMosaic.ValueIdx

/-- The table: 1024 rows of 32. -/
abbrev Rows : Shape := ⟨2, ![1024, 32]⟩
/-- The table read as one row of 32768. -/
abbrev Line : Shape := ⟨2, ![1, 32768]⟩
/-- The pairwise sums laid out flat. -/
abbrev Flat : Shape := ⟨2, ![1024, 32768]⟩
/-- The pairwise sums. -/
abbrev Cube : Shape := ⟨3, ![1024, 1024, 32]⟩
/-- 128 rows of the table, and 128 rows of the flat layout. -/
abbrev TileRows : Shape := ⟨2, ![128, 32]⟩
abbrev TileFlat : Shape := ⟨2, ![128, 32768]⟩

/-- Column `c` of the flat layout holds entry `c mod 32` of a row of the table … -/
abbrev lane (c : Fin 32768) : Fin 32 := ⟨c.val % 32, Nat.mod_lt _ (by decide)⟩
/-- … namely of row `c / 32`, -/
abbrev rowOf (c : Fin 32768) : Fin 1024 := ⟨c.val / 32, by have := c.isLt; omega⟩
/-- and entry `d` of row `j` sits in column `32·j + d`. -/
abbrev col (j : Fin 1024) (d : Fin 32) : Fin 32768 := ⟨j.val * 32 + d.val, by have := j.isLt; have := d.isLt; omega⟩

theorem lane_col (j : Fin 1024) (d : Fin 32) : lane (col j d) = d :=
  Fin.ext (by show (j.val * 32 + d.val) % 32 = d.val; have := d.isLt; omega)
theorem rowOf_col (j : Fin 1024) (d : Fin 32) : rowOf (col j d) = j :=
  Fin.ext (by show (j.val * 32 + d.val) / 32 = j.val; have := d.isLt; omega)

/-- The flat layout of the pairwise sums of `p`, with the second summand read from a one-row copy `q` of the table. -/
def flatSum (p : Rows.Idx → EReal) (q : Line.Idx → EReal) : Flat.Idx → EReal :=
  fun j => p (ix2 (j 0) (lane (j 1))) + q (ix2 0 (j 1))

/-- The pairwise row sums of `p`. -/
def pairSum (p : Rows.Idx → EReal) : Cube.Idx → EReal :=
  fun i => p (ix2 (i 0) (i 2)) + p (ix2 (i 1) (i 2))

variable {α : Type}

/-- 1024 copies of a 128 × 32 tile side by side: column `c` is the tile's column `c mod 32`. -/
theorem repeat_apply (x : TileRows.Idx → α)
    (h : Shape.Concatenates ((List.replicate 1024 (⟨TileRows, x⟩ : (s : Shape) × (s.Idx → α))).map (·.1)) TileFlat 1)
    (r : Fin 128) (c : Fin 32768) :
    concatenate TileFlat 1 (List.replicate 1024 (⟨TileRows, x⟩ : (s : Shape) × (s.Idx → α))) h (ix2 r c) = x (ix2 r (lane c)) :=
  concatenate_replicate_apply 1 1024 x h rfl (ix2 r c) (ix2 r (lane c)) rfl
    (fun b hb => match b, hb with
      | ⟨0, _⟩, _ => rfl
      | ⟨1, _⟩, hb => absurd rfl hb)

/-- One row spread over 128 rows: every row is that row. -/
theorem spread_apply (y : Line.Idx → α) (h : Line.Broadcasts TileFlat) (r : Fin 128) (c : Fin 32768) :
    broadcastTo TileFlat y h (ix2 r c) = y (ix2 0 c) :=
  broadcastTo_apply y h (ix2 r c) (ix2 0 c) (fun a => match a with
    | ⟨0, _⟩ => by show 0 = if (1 : Nat) = 1 then 0 else _; rw [if_pos rfl]
    | ⟨1, _⟩ => by show c.val = if (32768 : Nat) = 1 then 0 else c.val; rw [if_neg (by decide)])

/-- 128 rows of the flat layout: the tile of the table written 1024 times side by side, plus the one-row copy on every
    row.  The list of pieces is any list that IS 1024 copies of the tile. -/
theorem tile_apply (y0 : TileRows.Idx → EReal) (y1 : Line.Idx → EReal)
    (xs : List ((s : Shape) × (s.Idx → EReal))) (hxs : xs = List.replicate 1024 ⟨TileRows, y0⟩)
    (hc : Shape.Concatenates (xs.map (·.1)) TileFlat 1) (hb : Line.Broadcasts TileFlat) (r : Fin 128) (c : Fin 32768) :
    addf (F := Ideal) (φ := .f32) (concatenate TileFlat 1 xs hc) (broadcastTo TileFlat y1 hb) (ix2 r c)
      = y0 (ix2 r (lane c)) + y1 (ix2 0 c) := by
  subst hxs
  rw [addf_apply, repeat_apply, spread_apply]

/-- The table read as one row: column `c` is entry `c mod 32` of row `c / 32`. -/
theorem flatten_apply (p : Rows.Idx → α) (h : Rows.ShapeCasts Line) (c : Fin 32768) :
    shapeCast Line p h (ix2 0 c) = p (ix2 (rowOf c) (lane c)) :=
  shapeCast_apply p h (ix2 0 c) (ix2 (rowOf c) (lane c)) (by
    rw [Shape.rowMajor_val_two, Shape.rowMajor_val_two]
    show c.val / 32 * 32 + c.val % 32 = 0 * 32768 + c.val
    omega)

/-- The flat layout read as a 1024 × 1024 × 32 array: entry `(i, j, d)` is column `32·j + d` of row `i`. -/
theorem cube_apply (f : Flat.Idx → α) (h : Flat.ShapeCasts Cube) (i j : Fin 1024) (d : Fin 32) :
    shapeCast Cube f h (ix3 i j d) = f (ix2 i (col j d)) :=
  shapeCast_apply f h (ix3 i j d) (ix2 i (col j d)) (by
    rw [Shape.rowMajor_val_two, Shape.rowMajor_val_three]
    show i.val * 32768 + (j.val * 32 + d.val) = (i.val * 1024 + j.val) * 32 + d.val
    omega)

/-- The flat layout over the table and its own one-row copy, read back as a 1024 × 1024 × 32 array, is the array of pairwise
    row sums. -/
theorem cube_flatSum (p : Rows.Idx → EReal) (h1 : Rows.ShapeCasts Line) (h2 : Flat.ShapeCasts Cube) :
    shapeCast Cube (flatSum p (shapeCast Line p h1)) h2 = pairSum p := by
  funext i
  obtain ⟨a, b, d, rfl⟩ : ∃ (a b : Fin 1024) (d : Fin 32), i = ix3 a b d := ⟨i 0, i 1, i 2, eq_ix3 i⟩
  rw [cube_apply]
  show p (ix2 a (lane (col b d))) + shapeCast Line p h1 (ix2 0 (col b d)) = p (ix2 a d) + p (ix2 b d)
  rw [flatten_apply, lane_col, rowOf_col]

end Cert.OuterSum

end
-- ==== Proof.KernelRegion.lean ====
/-
  The region of the kernel, read as a value.

  At grid point `t` the body loads rows `128·t … 128·t + 127` of the table `p` (a 128 × 32 tile) and the whole one-row copy `q`
  of the table (1 × 32768), writes the tile 1024 times side by side, adds `q` to every row, and stores the 128 × 32768 result as
  rows `128·t … 128·t + 127` of the flat output.  So what point `t` writes back is block `t` of ONE function of the two arrays
  the region finds, `flatSum p q` (`flushed_eq`): entry `(r, c)` of the stored tile is `tile[r, c mod 32] + q[0, c]`
  (`out_apply`), the tile's row `r` is the table's row `128·t + r`, and the output's row is the same `128·t + r`.  The eight
  blocks cover the 1024 rows (`cover`: row `i` lies in block `i / 128`), so after the region the flat output IS `flatSum p q`
  (`final`).
-/
import proofs.«102336_j77807627534826_2_alg».proof.Proof.Gen.KernelIdeal.Frame
import proofs.«102336_j77807627534826_2_alg».proof.Proof.OuterSum
import Idealize.ShloMosaic.Lib.Pipeline.Value
import Idealize.ShloMosaic.Lib.ValueIdx

noncomputable section

namespace Cert.KernelIdeal.Region

open Cert.KernelIdeal Cert.KernelIdeal.Gen Cert.OuterSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Every load and the one store of the body go through the whole buffer: offsets zero. -/
theorem offs_zero : (![0, 0] : Fin 2 → Nat) = fun _ => 0 := funext fun a => by fin_cases a <;> rfl

set_option maxRecDepth 65536 in
/-- What the body leaves in the output's buffer, entry by entry: the loaded tile's row `r` at column `c mod 32`, plus the
    one-row copy at column `c`. -/
theorem out_apply (x0 : Vec Ideal S128x32 .f32) (x1 : Vec Ideal S1x32768 .f32) (r : Fin 128) (q : Fin 32768) :
    out0_2 (F := Ideal) x0 x1 (ix2 r q) = (x0 (ix2 r (lane q)) + x1 (ix2 0 q) : EReal) := by
  unfold out0_2
  rw [View.canon_unit_zero offs_zero]
  simp only [View.ld_unit_zero (S := S128x32) offs_zero, View.ld_unit_zero (S := S1x32768) offs_zero]
  unfold k0_pay1
  refine (tile_apply (shapeCast S128x32 x0 _) (shapeCast S1x32768 x1 _) _ rfl _ _ r q).trans ?_
  rw [shapeCast_self, shapeCast_self]

/-- The same at any index of the stored tile. -/
theorem out_at (x0 : Vec Ideal S128x32 .f32) (x1 : Vec Ideal S1x32768 .f32) (j : S128x32768.Idx) :
    out0_2 (F := Ideal) x0 x1 j = (x0 (ix2 (j 0) (lane (j 1))) + x1 (ix2 0 (j 1)) : EReal) :=
  (congrArg (out0_2 (F := Ideal) x0 x1) (eq_ix2 j)).trans (out_apply x0 x1 (j 0) (j 1))

/-- The printed index maps over the eight points: the tile of the table and the block of the output move together down the
    rows, nothing moves along the columns, and the one-row copy stays put. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the eight row blocks of the output is some point's. -/
theorem idx_onto : ∀ b : Fin 8, ∃ t : Fin cfg0.N, win0_2.index t = ![b.val, 0] :=
  (by decide +kernel : ∀ b : Fin 8, ∃ t : Fin grid0.N, win0_2.index t = ![b.val, 0])

/-- `flatSum` at an index of the flat output, from any spelling of the two indices it reads. -/
theorem flatSum_at (p : S1024x32.Idx → EReal) (q : S1x32768.Idx → EReal) (i : S1024x32768.Idx) (a : S1024x32.Idx) (b : S1x32768.Idx)
    (ha0 : (a 0).val = (i 0).val) (ha1 : (a 1).val = (i 1).val % 32) (hb : (b 1).val = (i 1).val) :
    p a + q b = flatSum p q i := by
  have ea : a = ix2 (i 0) (lane (i 1)) := funext fun d => Fin.ext (by
    match d with
    | ⟨0, _⟩ => exact ha0
    | ⟨1, _⟩ => exact ha1)
  have eb : b = ix2 0 (i 1) := funext fun d => Fin.ext (by
    match d with
    | ⟨0, _⟩ => have h1 : (b 0).val < 1 := (b 0).isLt; show (b 0).val = 0; omega
    | ⟨1, _⟩ => exact hb)
  subst ea eb
  rfl

/-- WHAT POINT `t` WRITES BACK is block `t` of `flatSum` of the table and its one-row copy as the region finds them. -/
theorem flushed_eq (c : Dev nD) (t : Fin cfg0.N) :
    (dats m 0 c).flushed 2 t = ((cfg0.win 2).blk t).view.read (Elt Ideal) (flatSum (V m c main_v8) (V m c main_v9)) := by
  show (cfg0.win 2).cut (grid0.coords t) ((dats m 0 c).after 2 t) = _
  rw [after0_2]
  obtain ⟨e0, e1, e2, e3, e4⟩ := idx_facts t
  funext j
  refine (out_at (iblk m c 0 t) (iblk m c 1 t) j).trans ?_
  show HAdd.hAdd (α := EReal) (β := EReal) (γ := EReal) (V m c main_v8 (((cfg0.win 0).blk t).view.emb (ix2 (j 0) (lane (j 1)))))
      (V m c main_v9 (((cfg0.win 1).blk t).view.emb (ix2 0 (j 1))))
    = flatSum (V m c main_v8) (V m c main_v9) (((cfg0.win 2).blk t).view.emb j)
  refine flatSum_at (V m c main_v8) (V m c main_v9) _ _ _ ?_ ?_ ?_
  · show win0_0.index t (0 : Fin 2) * 128 + 1 * (j 0).val = win0_2.index t (0 : Fin 2) * 128 + 1 * (j 0).val
    omega
  · show win0_0.index t (1 : Fin 2) * 32 + 1 * ((j 1).val % 32) = (win0_2.index t (1 : Fin 2) * 32768 + 1 * (j 1).val) % 32
    omega
  · show win0_1.index t (1 : Fin 2) * 32768 + 1 * (j 1).val = win0_2.index t (1 : Fin 2) * 32768 + 1 * (j 1).val
    omega

/-- An index of the flat output is in point `t`'s block iff each coordinate is in the block's range on its axis. -/
theorem mem_blk (t : Fin cfg0.N) (i : S1024x32768.Idx) :
    i ∈ ((cfg0.win 2).blk t).view.set ↔ ∀ a : Fin 2, win0_2.index t a * S128x32768.size a ≤ (i a).val ∧ (i a).val < win0_2.index t a * S128x32768.size a + S128x32768.size a := by
  show i ∈ ((View.whole main_v10).slice (win0_2.rect t)).set ↔ _
  rw [View.set_slice_whole, Rect.mem_set_unit]
  exact Iff.rfl

/-- THE COVER: row `i` of the flat output lies in row block `i / 128`, and every block spans all the columns. -/
theorem cover (i : S1024x32768.Idx) :
    ∃ t : Fin cfg0.N, (cfg0.win 2).flush t = true ∧ i ∈ ((cfg0.win 2).blk t).view.set := by
  have hi0 : (i 0).val < 1024 := (i 0).isLt
  have hi1 : (i 1).val < 32768 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 32768 ≤ (i 1).val ∧ (i 1).val < win0_2.index t (1 : Fin 2) * 32768 + 32768; omega

/-- THE FLAT OUTPUT after the region: `flatSum` of the table and its one-row copy as the region finds them. -/
theorem final (c : Dev nD) : (dats m 0 c).arrAt 2 cfg0.N = flatSum (V m c main_v8) (V m c main_v9) :=
  (dats m 0 c).arrAt_eq_of_cover 2 (flatSum (V m c main_v8) (V m c main_v9)) (fun t _ => flushed_eq m c t) cover

end Cert.KernelIdeal.Region

end
-- ==== Proof.KernelWhole.lean ====
/-
  The whole kernel program, read as a value.

  Before the region the host lines compute the first projection plus bias (the first result) and the table `p`, and lay `p`
  out a second time as one row of 32768 numbers; these are the same operations, in the same order, as the reference's first
  ten, so what the region finds are the reference's own stages of the arguments (`found_single`, `found_table`,
  `found_line`).  The region leaves the flat layout of the pairwise row sums (the region's `final`), and the one host line after
  it reads the flat layout back as a 1024 × 1024 × 32 array: the pairwise row sums of `p` (`cube_flatSum`).  The line after the
  region writes neither the first result nor an argument.
-/
import proofs.«102336_j77807627534826_2_alg».proof.Proof.KernelRegion
import proofs.«102336_j77807627534826_2_alg».proof.Proof.Gen.ReferenceIdeal.Read
import Idealize.ShloMosaic.Lib.StableHlo.Run

noncomputable section

namespace Cert.KernelIdeal.Whole

open Cert.KernelIdeal Cert.KernelIdeal.Gen Cert.KernelIdeal.Region Cert.OuterSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The first projection plus bias, as the region finds it: the reference's stage of the same name. -/
theorem found_single (c : Dev nD) :
    (V m c main_v4 : S1024x64.Idx → EReal)
      = Cert.ReferenceIdeal.Read.val_main_v4 (F := Ideal) (m ((c.tc : Thread nD τ).loc main_arg0)) (m ((c.tc : Thread nD τ).loc main_arg1)) (m ((c.tc : Thread nD τ).loc main_arg2)) := by
  show StableHlo.after hostOps0 (fun b => m (c, b)) (Proc.devRef .tc main_v4) = _
  after_results
  rfl

/-- The table, as the region finds it: the reference's stage. -/
theorem found_table (c : Dev nD) :
    (V m c main_v8 : S1024x32.Idx → EReal)
      = Cert.ReferenceIdeal.Read.val_main_v8 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps0 (fun b => m (c, b)) (Proc.devRef .tc main_v8) = _
  after_results
  rfl

/-- Its one-row copy, as the region finds it: the table read as one row. -/
theorem found_line (c : Dev nD) :
    (V m c main_v9 : S1x32768.Idx → EReal) = shapeCast S1x32768 (V m c main_v8 : S1024x32.Idx → EReal) shapeCasts_S1024x32_S1x32768 := by
  show StableHlo.after hostOps0 (fun b => m (c, b)) (Proc.devRef .tc main_v9) = shapeCast S1x32768 (StableHlo.after hostOps0 (fun b => m (c, b)) (Proc.devRef .tc main_v8)) _
  after_results
  rfl

/-- The line after the region does not write the first result: it ends as the region found it. -/
theorem tail_single (c : Dev nD) :
    Pipeline.afterTail₀ cfgs (dats m) 0 (V0 m) [hostOps1] c main_v4 = V m c main_v4 := by
  unfold Pipeline.afterTail₀
  show StableHlo.after hostOps1 _ (Proc.devRef .tc main_v4) = _
  after_results
  exact Pipeline.withArrays_of_ne spec0 c (V0 m c) _ main_v4 (by decide : ∀ w, Pipeline.arrRef spec0 w ≠ main_v4)

/-- The line after the region reads the flat output back as a 1024 × 1024 × 32 array. -/
theorem tail_pair (c : Dev nD) :
    Pipeline.afterTail₀ cfgs (dats m) 0 (V0 m) [hostOps1] c main_v11
      = shapeCast S1024x1024x32 ((dats m 0 c).arrAt 2 cfg0.N) shapeCasts_S1024x32768_S1024x1024x32 := by
  unfold Pipeline.afterTail₀
  show StableHlo.after hostOps1 _ (Proc.devRef .tc main_v11) = _
  after_results
  exact congrArg (fun X : S1024x32768.Idx → EReal => shapeCast S1024x1024x32 X shapeCasts_S1024x32768_S1024x1024x32)
    (Pipeline.withArrays_arr spec0 winFacts0.arr_inj c (V0 m c) _ 2)

/-- The second result: the pairwise row sums of the reference's table of the arguments. -/
theorem pair_value (c : Dev nD) :
    Pipeline.afterTail₀ cfgs (dats m) 0 (V0 m) [hostOps1] c main_v11
      = pairSum (Cert.ReferenceIdeal.Read.val_main_v8 (F := Ideal) (m ((c.tc : Thread nD τ).loc main_arg0)) (m ((c.tc : Thread nD τ).loc main_arg1)) (m ((c.tc : Thread nD τ).loc main_arg2)) (m ((c.tc : Thread nD τ).loc main_arg3))) := by
  rw [tail_pair, final, found_line]
  exact (cube_flatSum _ _ _).trans (congrArg pairSum (found_table m c))

/-- THE RUN, read: every weakly fair execution of the kernel program terminates with its first result at the reference's
    first projection plus bias, its second at the pairwise row sums of the reference's table, and its arguments unchanged. -/
theorem run : θ_run defs (onTc (τ := τ) (main (F := Ideal))) ⟨m, fun _ => 0, ρ⟩ fun r => ∀ c : Dev nD,
      r.2.mem ((c.tc : Thread nD τ).loc main_v4)
        = Cert.ReferenceIdeal.Read.val_main_v4 (F := Ideal) (m ((c.tc : Thread nD τ).loc main_arg0)) (m ((c.tc : Thread nD τ).loc main_arg1)) (m ((c.tc : Thread nD τ).loc main_arg2))
      ∧ r.2.mem ((c.tc : Thread nD τ).loc main_v11)
        = pairSum (Cert.ReferenceIdeal.Read.val_main_v8 (F := Ideal) (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v4 (Pipeline.mem_restRefs_of main_v4 (by decide) (by decide))).trans ((tail_single m c).trans (found_single m c)),
      ((h c).2 main_v11 (Pipeline.mem_restRefs_of main_v11 (by decide) (by decide))).trans (pair_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.ReferencePair.lean ====
/-
  The reference, read as a value.

  The reference computes the table `p` (its stage `val_main_v8`: half of the second projection of the first projection plus
  bias) and then adds two broadcasts of it: `p` with a unit axis inserted in the middle and spread over it, and `p` with a
  unit axis inserted in front and spread over it.  At index `(i, j, d)` the first reads `p[i, d]` and the second `p[j, d]`, so
  the result is the array of pairwise row sums of `p` (`pair_eq`).
-/
import proofs.«102336_j77807627534826_2_alg».proof.Proof.Gen.ReferenceIdeal.Read
import proofs.«102336_j77807627534826_2_alg».proof.Proof.OuterSum

noncomputable section

namespace Cert.ReferenceIdeal.Pair

open Cert.ReferenceIdeal Cert.ReferenceIdeal.Read Cert.OuterSum
open Idealize.ShloMosaic Idealize.ShloMosaic.ValueIdx

/-- The reference's second result is the array of pairwise row sums of its table. -/
theorem pair_eq (x0 : (⟨S1024x32, .f32⟩ : BufTy).Contents (Elt Ideal)) (x1 : (⟨S64x32, .f32⟩ : BufTy).Contents (Elt Ideal))
    (x2 : (⟨S64, .f32⟩ : BufTy).Contents (Elt Ideal)) (x3 : (⟨S32x64, .f32⟩ : BufTy).Contents (Elt Ideal)) :
    val_main_v13 (F := Ideal) x0 x1 x2 x3 = pairSum (val_main_v8 (F := Ideal) x0 x1 x2 x3) := by
  funext i
  rw [val_main_v13_apply, val_main_v11_apply, val_main_v12_apply, val_main_v9_apply, val_main_v10_apply]
  have e1 : idx_main_v9 (idx_main_v11 i) = ix2 (i 0) (i 2) := funext fun a => Fin.ext (by
    match a with
    | ⟨0, _⟩ => rfl
    | ⟨1, _⟩ => rfl)
  have e2 : idx_main_v10 (idx_main_v12 i) = ix2 (i 1) (i 2) := funext fun a => Fin.ext (by
    match a with
    | ⟨0, _⟩ => rfl
    | ⟨1, _⟩ => rfl)
  rw [e1, e2]
  rfl

end Cert.ReferenceIdeal.Pair

end
-- ==== Proof.lean ====
/-
  The proof of `Cert.Claim`: the kernel program and the reference compute the same two arrays of the same four arguments.

  Both programs compute, with the same host operations in the same order, the first projection plus bias (the first
  result) and from it the table `p` = half the second projection.  The reference then adds two broadcasts of `p`,
  `p[i, d] + p[j, d]` at `(i, j, d)`; the kernel program lays `p` out as one row `q` of 32768 numbers, builds in its region the
  flat matrix whose entry `(i, 32·j + d)` is `p[i, d] + q[0, 32·j + d] = p[i, d] + p[j, d]`, and reads it back as a
  1024 × 1024 × 32 array.  The two sums have the same summands in the same order, so no law of the extended reals and no
  finiteness of the inputs is needed: the precondition is never opened.

  The three frames: the kernel programs' are the generated frame certificates; the reference's is its generated run with
  the results dropped.  The idealization rewrote nothing, so `preserves` is trivial.  `algebraic`: the kernel program's run
  read as a value (KernelWhole, over KernelRegion and OuterSum) beside the reference's generated run read as a value
  (ReferencePair), both stated over the reference's own stages of the arguments.
-/
import proofs.«102336_j77807627534826_2_alg».proof.Defs
import proofs.«102336_j77807627534826_2_alg».proof.Proof.Gen.Kernel
import proofs.«102336_j77807627534826_2_alg».proof.Proof.Gen.Kernel.Frame
import proofs.«102336_j77807627534826_2_alg».proof.Proof.Gen.KernelIdeal
import proofs.«102336_j77807627534826_2_alg».proof.Proof.Gen.KernelIdeal.Frame
import proofs.«102336_j77807627534826_2_alg».proof.Proof.Gen.ReferenceIdeal
import proofs.«102336_j77807627534826_2_alg».proof.Proof.Gen.Pre_finite_inputs
import proofs.«102336_j77807627534826_2_alg».proof.Proof.Gen.ReferenceIdeal.Run
import proofs.«102336_j77807627534826_2_alg».proof.Proof.Gen.ReferenceIdeal.Read
import proofs.«102336_j77807627534826_2_alg».proof.Proof.KernelWhole
import proofs.«102336_j77807627534826_2_alg».proof.Proof.ReferencePair
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no region: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the first projection plus bias and with the pairwise row
    sums of the table, each stated as the reference's own stage of the kernel program's arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, (hagree c).1, (hagree c).2.1, (hagree c).2.2.1]
    exact Cert.ReferenceIdeal.Read.val_main_v4_eq _ _ _
  · rw [(h c).2.1, (hagree c).1, (hagree c).2.1, (hagree c).2.2.1, (hagree c).2.2.2]
    exact (Cert.ReferenceIdeal.Read.val_main_v13_eq _ _ _ _).trans (Cert.ReferenceIdeal.Pair.pair_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
